-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S8 : Shape := ⟨1, ![8]⟩
abbrev S4096x4096 : Shape := ⟨2, ![4096, 4096]⟩
abbrev S4096 : Shape := ⟨1, ![4096]⟩
abbrev S32x4096x16 : Shape := ⟨3, ![32, 4096, 16]⟩
abbrev S32x16x4096 : Shape := ⟨3, ![32, 16, 4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S32x4096x16 : S_.BroadcastsInDim S32x4096x16 (![] : Fin 0 → Fin S32x4096x16.rank)
  reducesTo_S32x4096x16_S_d0_1_2 : S32x4096x16.ReducesTo [0, 1, 2] S_
  bcast_S_S32x16x4096 : S_.BroadcastsInDim S32x16x4096 (![] : Fin 0 → Fin S32x16x4096.rank)
  reducesTo_S32x16x4096_S_d0_1_2 : S32x16x4096.ReducesTo [0, 1, 2] S_

variable [Facts]

def fn_part1 {F : FTy → Type} [FloatOps F] (main_arg5 : FVec F S32x16x4096 .f32) (main_v13 : IVec S_ 1) (main_v16 : IVec S32x4096x16 1) : IVec S_ 1 :=
  let main_c_5 : IVec S_ 1 := constantI S_ 1 1#1
  let main_v17 : IVec S_ 1 := (fun x v => Host.reduce IntOp.andi x v reducesTo_S32x4096x16_S_d0_1_2 h_S_) main_v16 main_c_5
  let main_v18 : IVec S_ 1 := andi main_v13 main_v17
  let main_v19 : FVec F S32x16x4096 .f32 := Host.absf main_arg5
  let main_cst_6 : FVec F S_ .f32 := constant S_ .f32 0x7F800000#32
  let main_v20 : FVec F S32x16x4096 .f32 := broadcastInDim S32x16x4096 ![] bcast_S_S32x16x4096 main_cst_6
  let main_v21 : IVec S32x16x4096 1 := cmpf .olt main_v19 main_v20
  let main_c_7 : IVec S_ 1 := constantI S_ 1 1#1
  let main_v22 : IVec S_ 1 := (fun x v => Host.reduce IntOp.andi x v reducesTo_S32x16x4096_S_d0_1_2 h_S_) main_v21 main_c_7
  let main_v23 : IVec S_ 1 := andi main_v18 main_v22
  main_v23

def fn {F : FTy → Type} [FloatOps F] (main_arg0 : FVec F S8x1024x4096 .f32) (main_arg1 : IVec S8 32) (main_arg2 : FVec F S4096x4096 .f32) (main_arg3 : FVec F S4096 .f32) (main_arg4 : FVec F S32x4096x16 .f32) (main_arg5 : FVec F S32x16x4096 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x4096x16 .f32 := Host.absf main_arg4
  let main_cst_4 : FVec F S_ .f32 := constant S_ .f32 0x7F800000#32
  let main_v15 : FVec F S32x4096x16 .f32 := broadcastInDim S32x4096x16 ![] bcast_S_S32x4096x16 main_cst_4
  let main_v16 : IVec S32x4096x16 1 := cmpf .olt main_v14 main_v15
  fn_part1 (F := F) main_arg5 main_v13 main_v16
-- ==== Kernel.lean ====
abbrev S8x1024x4096 : Shape := ⟨3, ![8, 1024, 4096]⟩
abbrev S8 : Shape := ⟨1, ![8]⟩
abbrev S4096x4096 : Shape := ⟨2, ![4096, 4096]⟩
abbrev S4096 : Shape := ⟨1, ![4096]⟩
abbrev S32x4096x16 : Shape := ⟨3, ![32, 4096, 16]⟩
abbrev S32x16x4096 : Shape := ⟨3, ![32, 16, 4096]⟩
abbrev S8192x4096 : Shape := ⟨2, ![8192, 4096]⟩
abbrev S1x4096 : Shape := ⟨2, ![1, 4096]⟩
abbrev S_ : Shape := ⟨0, ![]⟩
abbrev S8x1 : Shape := ⟨2, ![8, 1]⟩
abbrev S8x4096x16 : Shape := ⟨3, ![8, 4096, 16]⟩
abbrev S8x16x4096 : Shape := ⟨3, ![8, 16, 4096]⟩
abbrev S8x1024x16 : Shape := ⟨3, ![8, 1024, 16]⟩
abbrev S8192x16 : Shape := ⟨2, ![8192, 16]⟩
abbrev S1024x1024 : Shape := ⟨2, ![1024, 1024]⟩
abbrev S1024x16 : Shape := ⟨2, ![1024, 16]⟩
abbrev S1x16x1024 : Shape := ⟨3, ![1, 16, 1024]⟩
abbrev S1x1024 : Shape := ⟨2, ![1, 1024]⟩
abbrev S16x1024 : Shape := ⟨2, ![16, 1024]⟩

abbrev nBuf : Space → Nat
  | .hbm => 34
  | .vmem => 13
  | .smem => 0
  | _ => 0

abbrev bufTy : (tb : Table) → Fin (tcTables nBuf tb) → BufTy
  | .hbm, ⟨0, _⟩ => ⟨S8x1024x4096, .f32⟩
  | .hbm, ⟨1, _⟩ => ⟨S8, .i32⟩
  | .hbm, ⟨2, _⟩ => ⟨S4096x4096, .f32⟩
  | .hbm, ⟨3, _⟩ => ⟨S4096, .f32⟩
  | .hbm, ⟨4, _⟩ => ⟨S32x4096x16, .f32⟩
  | .hbm, ⟨5, _⟩ => ⟨S32x16x4096, .f32⟩
  | .hbm, ⟨6, _⟩ => ⟨S8192x4096, .f32⟩
  | .hbm, ⟨7, _⟩ => ⟨S8192x4096, .bf16⟩
  | .hbm, ⟨8, _⟩ => ⟨S4096x4096, .bf16⟩
  | .hbm, ⟨9, _⟩ => ⟨S1x4096, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x4096x16, .f32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x16x4096, .f32⟩
  | .hbm, ⟨28, _⟩ => ⟨S8x1024x16, .f32⟩
  | .hbm, ⟨29, _⟩ => ⟨S8192x16, .f32⟩
  | .hbm, ⟨30, _⟩ => ⟨S8192x16, .bf16⟩
  | .hbm, ⟨31, _⟩ => ⟨S8x16x4096, .bf16⟩
  | .hbm, ⟨32, _⟩ => ⟨S8192x4096, .f32⟩
  | .hbm, ⟨33, _⟩ => ⟨S8x1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x1024x4096_S8192x4096 : S8x1024x4096.ShapeCasts S8192x4096
  bitsLt_bf16_f32 : FTy.bits .bf16 < FTy.bits .f32
  shapeCasts_S4096_S1x4096 : S4096.ShapeCasts S1x4096
  bcast_S_S8 : S_.BroadcastsInDim S8 (![] : Fin 0 → Fin S8.rank)
  bcast_S8_S8x1_0 : S8.BroadcastsInDim S8x1 (![0] : Fin 1 → Fin S8x1.rank)
  shapeCasts_S8x1024x16_S8192x16 : S8x1024x16.ShapeCasts S8192x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S8x1024x4096 : S8192x4096.ShapeCasts S8x1024x4096
  gather_S32x4096x16_S8x1_S8x4096x16_12_0_n_n_0_1_1409616_wf : GatherDims.WF S32x4096x16 S8x1 S8x4096x16 [1, 2] [0] [] [0] [] 1 ![1, 4096, 16]
  gather_S32x16x4096_S8x1_S8x16x4096_12_0_n_n_0_1_1164096_wf : GatherDims.WF S32x16x4096 S8x1 S8x16x4096 [1, 2] [0] [] [0] [] 1 ![1, 16, 4096]
  dot_S8x1024x4096_S8x4096x16_S8x1024x16_2_1_1_2_0_0_wf : DotDims.WF S8x1024x4096 S8x4096x16 S8x1024x16 [2] [1] [1] [2] [0] [0]
  dot_S1024x1024_S1024x1024_S1024x1024_1_1_0_0_n_n_wf : DotDims.WF S1024x1024 S1024x1024 S1024x1024 [1] [1] [0] [0] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1024.size a ≤ S8x16x4096.size a
  hwx0_3 : ∀ i : grid0.Coords, EltTy.bits .bf16 = 32 ∨ (Rect.block (s := S8x16x4096) S1x16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def gather_S32x4096x16_S8x1_S8x4096x16_12_0_n_n_0_1_1409616 : GatherDims S32x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S32x4096x16_S8x1_S8x4096x16_12_0_n_n_0_1_1409616_wf
def gather_S32x16x4096_S8x1_S8x16x4096_12_0_n_n_0_1_1164096 : GatherDims S32x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S32x16x4096_S8x1_S8x16x4096_12_0_n_n_0_1_1164096_wf
def dot_S8x1024x4096_S8x4096x16_S8x1024x16_2_1_1_2_0_0 : DotDims S8x1024x4096 S8x4096x16 S8x1024x16 where
  lhsContracting := [2]
  rhsContracting := [1]
  lhsNonContracting := [1]
  rhsNonContracting := [2]
  lhsBatch := [0]
  rhsBatch := [0]
  wf := dot_S8x1024x4096_S8x4096x16_S8x1024x16_2_1_1_2_0_0_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S8 : Shape := ⟨1, ![8]⟩
abbrev S4096x4096 : Shape := ⟨2, ![4096, 4096]⟩
abbrev S4096 : Shape := ⟨1, ![4096]⟩
abbrev S32x4096x16 : Shape := ⟨3, ![32, 4096, 16]⟩
abbrev S32x16x4096 : Shape := ⟨3, ![32, 16, 4096]⟩
abbrev S1x1x4096 : Shape := ⟨3, ![1, 1, 4096]⟩
abbrev S_ : Shape := ⟨0, ![]⟩
abbrev S8x1 : Shape := ⟨2, ![8, 1]⟩
abbrev S8x4096x16 : Shape := ⟨3, ![8, 4096, 16]⟩
abbrev S8x16x4096 : Shape := ⟨3, ![8, 16, 4096]⟩
abbrev S8x1024x16 : Shape := ⟨3, ![8, 1024, 16]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S8, .i32⟩
  | .hbm, ⟨2, _⟩ => ⟨S4096x4096, .f32⟩
  | .hbm, ⟨3, _⟩ => ⟨S4096, .f32⟩
  | .hbm, ⟨4, _⟩ => ⟨S32x4096x16, .f32⟩
  | .hbm, ⟨5, _⟩ => ⟨S32x16x4096, .f32⟩
  | .hbm, ⟨6, _⟩ => ⟨S8x1024x4096, .f32⟩
  | .hbm, ⟨7, _⟩ => ⟨S1x1x4096, .f32⟩
  | .hbm, ⟨8, _⟩ => ⟨S8x1024x4096, .f32⟩
  | .hbm, ⟨9, _⟩ => ⟨S8x1024x4096, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x4096x16, .f32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x16x4096, .f32⟩
  | .hbm, ⟨28, _⟩ => ⟨S8x1024x16, .f32⟩
  | .hbm, ⟨29, _⟩ => ⟨S8x1024x4096, .f32⟩
  | .hbm, ⟨30, _⟩ => ⟨S_, .f32⟩
  | .hbm, ⟨31, _⟩ => ⟨S8x1024x4096, .f32⟩
  | .hbm, ⟨32, _⟩ => ⟨S8x1024x4096, .f32⟩
  | .hbm, ⟨33, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  bcast_S_S8 : S_.BroadcastsInDim S8 (![] : Fin 0 → Fin S8.rank)
  bcast_S8_S8x1_0 : S8.BroadcastsInDim S8x1 (![0] : Fin 1 → Fin S8x1.rank)
  bcast_S_S8x1024x4096 : S_.BroadcastsInDim S8x1024x4096 (![] : Fin 0 → Fin S8x1024x4096.rank)
  dot_S8x1024x4096_S4096x4096_S8x1024x4096_2_1_01_0_n_n_wf : DotDims.WF S8x1024x4096 S4096x4096 S8x1024x4096 [2] [1] [0, 1] [0] [] []
  gather_S32x4096x16_S8x1_S8x4096x16_12_0_n_n_0_1_1409616_wf : GatherDims.WF S32x4096x16 S8x1 S8x4096x16 [1, 2] [0] [] [0] [] 1 ![1, 4096, 16]
  gather_S32x16x4096_S8x1_S8x16x4096_12_0_n_n_0_1_1164096_wf : GatherDims.WF S32x16x4096 S8x1 S8x16x4096 [1, 2] [0] [] [0] [] 1 ![1, 16, 4096]
  dot_S8x1024x4096_S8x4096x16_S8x1024x16_2_1_1_2_0_0_wf : DotDims.WF S8x1024x4096 S8x4096x16 S8x1024x16 [2] [1] [1] [2] [0] [0]
  dot_S8x1024x16_S8x16x4096_S8x1024x4096_2_1_1_2_0_0_wf : DotDims.WF S8x1024x16 S8x16x4096 S8x1024x4096 [2] [1] [1] [2] [0] [0]

variable [Facts₀]

def dot_S8x1024x4096_S4096x4096_S8x1024x4096_2_1_01_0_n_n : DotDims S8x1024x4096 S4096x4096 S8x1024x4096 where
  lhsContracting := [2]
  rhsContracting := [1]
  lhsNonContracting := [0, 1]
  rhsNonContracting := [0]
  lhsBatch := []
  rhsBatch := []
  wf := dot_S8x1024x4096_S4096x4096_S8x1024x4096_2_1_01_0_n_n_wf
def gather_S32x4096x16_S8x1_S8x4096x16_12_0_n_n_0_1_1409616 : GatherDims S32x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S32x4096x16_S8x1_S8x4096x16_12_0_n_n_0_1_1409616_wf
def gather_S32x16x4096_S8x1_S8x16x4096_12_0_n_n_0_1_1164096 : GatherDims S32x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S32x16x4096_S8x1_S8x16x4096_12_0_n_n_0_1_1164096_wf
def dot_S8x1024x4096_S8x4096x16_S8x1024x16_2_1_1_2_0_0 : DotDims S8x1024x4096 S8x4096x16 S8x1024x16 where
  lhsContracting := [2]
  rhsContracting := [1]
  lhsNonContracting := [1]
  rhsNonContracting := [2]
  lhsBatch := [0]
  rhsBatch := [0]
  wf := dot_S8x1024x4096_S8x4096x16_S8x1024x16_2_1_1_2_0_0_wf
def dot_S8x1024x16_S8x16x4096_S8x1024x4096_2_1_1_2_0_0 : DotDims S8x1024x16 S8x16x4096 S8x1024x4096 where
  lhsContracting := [2]
  rhsContracting := [1]
  lhsNonContracting := [1]
  rhsNonContracting := [2]
  lhsBatch := [0]
  rhsBatch := [0]
  wf := dot_S8x1024x16_S8x16x4096_S8x1024x4096_2_1_1_2_0_0_wf

class Facts : Prop extends Facts₀ where

variable [Facts]
-- ==== Proof.Step.lean ====
/-
  What one grid step of the kernel leaves behind, as values.

  The kernel walks a grid (i, j, k) of 8 × 4 × 4 steps.  It keeps a 1024 × 1024 accumulator across the four
  k-steps of one output tile (i, j):
    * at k = 0 it first clears the accumulator, then adds this step's product block: the accumulator ends
      at  "zero block, plus x-block · W-blockᵀ";
    * at k = 1, 2 it adds the step's product block to what the previous step left;
    * at k = 3 it does the same and then writes the output tile:
      "(accumulator + bias row) + (h-block · B-block) · 2".
  Each statement below says exactly that, for any float interpretation: the contents a step leaves are the
  body's arithmetic applied to the blocks it was handed (and, from k = 1 on, to the accumulator it found).
  A load of a whole buffer reads the buffer; a load of what the one covering store just wrote reads that
  store's value.
-/
import proofs.«152503_j38852274159666_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.Step
open Cert.KernelIdeal Cert.KernelIdeal.Gen
variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A middle step (k = 1 or 2): the accumulator ends at the found accumulator plus this step's product block. -/
theorem acc_mid (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i)
    (x0 : Vec F S1024x1024 .bf16) (x1 : Vec F S1024x1024 .bf16) (x2 : Vec F S1024x16 .bf16) (x3 : Vec F S1x16x1024 .bf16) (x4 : Vec F S1x1024 .f32) (xs0 : Vec F S1024x1024 .f32) :
    sout0_B_0 c i a3 h3 a4 h4 a5 h5 a6 h6 a7 h7 a8 h8 a9 h9 hc0 hc1 x0 x1 x2 x3 x4 xs0 = k0_pay2 x0 x1 xs0 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  rw [View.canon_unit_zero zeros2]
  simp only [View.readAt_eq_ld, h3.read_unread, h4.read_unread, h9.read_unread, View.ld_unit_zero (S := S1024x1024) zeros2]

/-- The first step (k = 0): the accumulator is cleared, read back, and ends at the zero block plus this
    step's product block. -/
theorem acc_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i)
    (x0 : Vec F S1024x1024 .bf16) (x1 : Vec F S1024x1024 .bf16) (x2 : Vec F S1024x16 .bf16) (x3 : Vec F S1x16x1024 .bf16) (x4 : Vec F S1x1024 .f32) :
    sout0_A_0 c i a3 h3 a4 h4 a5 h5 a6 h6 a7 h7 a8 h8 a9 h9 hc0 hc1 x0 x1 x2 x3 x4 = k0_pay2 x0 x1 (k0_pay1 (F := F)) := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S1024x1024) zeros2]

/-- The last step (k = 3), the accumulator: as in a middle step. -/
theorem acc_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S1x16x1024 .bf16) (x4 : Vec F S1x1024 .f32) (xs0 : Vec F S1024x1024 .f32) :
    sout0_C_0 c i a3 h3 a4 h4 a5 h5 a6 h6 a7 h7 a8 h8 a9 h9 hc0 hc1 x0 x1 x2 x3 x4 xs0 = k0_pay2 x0 x1 xs0 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero zeros2]
  simp only [View.readAt_eq_ld, h3.read_unread, h4.read_unread, h9.read_unread, View.ld_unit_zero (S := S1024x1024) zeros2]

/-- The last step (k = 3), the output tile: the finalize arithmetic applied to the h-block, the B-block, the
    accumulator this very step has just completed, and the bias row. -/
theorem tile_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1x16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i)
    (x0 : Vec F S1024x1024 .bf16) (x1 : Vec F S1024x1024 .bf16) (x2 : Vec F S1024x16 .bf16) (x3 : Vec F S1x16x1024 .bf16) (x4 : Vec F S1x1024 .f32) (xs0 : Vec F S1024x1024 .f32) :
    out0_C_5 c i a3 h3 a4 h4 a5 h5 a6 h6 a7 h7 a8 h8 a9 h9 hc0 hc1 x0 x1 x2 x3 x4 xs0 = k0_pay3 x2 x3 (k0_pay2 x0 x1 xs0) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero zeros2]
  simp only [View.readAt_eq_ld, h3.read_unread, h4.read_unread, h5.read_unread, h6.read_unread, h7.read_unread, h9.read_unread,
    View.ld_unit_zero (S := S1024x1024) zeros2, View.ld_unit_zero (S := S1024x16) zeros2, View.ld_unit_zero (S := S1x1024) zeros2,
    View.ld_unit_zero (S := S1x16x1024) zeros3, View.readCov_unit_zero (S := S1024x1024) _ zeros2]

end Cert.KernelIdeal.Step
end
-- ==== Proof.Chain.lean ====
/-
  The accumulator across the grid, and the tile each write-back point stores.

  Grid point number n (row-major over (i, j, k), k fastest) has k = n mod 4.  The accumulator after point n
  is therefore defined by recursion on n: where k = 0 it restarts from the zero block, elsewhere it continues
  from the point before — each time adding the point's own product of its x-block and W-block.  By induction
  on the point this is exactly what the kernel leaves in its scratch buffer, and at the points with k = 3
  (the only ones whose output tile is written back) the tile is the finalize arithmetic over that
  accumulator.
-/
import proofs.«152503_j38852274159666_2_alg».proof.Proof.Gen.KernelIdeal.Frame
import proofs.«152503_j38852274159666_2_alg».proof.Proof.Step
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.Chain
open Cert.KernelIdeal Cert.KernelIdeal.Gen
variable {F : FTy → Type} [FloatOps F]

variable (m : (ℓ : Loc nD τ sig) → Buf (Elt F) ℓ)

/-- The accumulator after grid point `n`: this point's product block added to the zero block (k = 0) or to the
    accumulator of the point before (k ≠ 0). -/
def acc (c : Dev nD) : (n : ℕ) → n < cfg0.N → Vec F S1024x1024 .f32
  | 0, h => k0_pay2 (iblk m c 0 ⟨0, h⟩) (iblk m c 1 ⟨0, h⟩) (k0_pay1 (F := F))
  | n + 1, h =>
    if (n + 1) % 4 = 0 then k0_pay2 (iblk m c 0 ⟨n + 1, h⟩) (iblk m c 1 ⟨n + 1, h⟩) (k0_pay1 (F := F))
    else k0_pay2 (iblk m c 0 ⟨n + 1, h⟩) (iblk m c 1 ⟨n + 1, h⟩) (acc c n (Nat.lt_of_succ_lt h))

/-- Where k = 0 the accumulator restarts from zero. -/
theorem acc_restart (c : Dev nD) (n : ℕ) (h : n + 1 < cfg0.N) (h0 : (n + 1) % 4 = 0) :
    acc m c (n + 1) h = k0_pay2 (iblk m c 0 ⟨n + 1, h⟩) (iblk m c 1 ⟨n + 1, h⟩) (k0_pay1 (F := F)) := by
  show (if (n + 1) % 4 = 0 then _ else _) = _
  rw [if_pos h0]

/-- Where k ≠ 0 it continues from the point before. -/
theorem acc_step (c : Dev nD) (n : ℕ) (h : n + 1 < cfg0.N) (h0 : ¬(n + 1) % 4 = 0) :
    acc m c (n + 1) h = k0_pay2 (iblk m c 0 ⟨n + 1, h⟩) (iblk m c 1 ⟨n + 1, h⟩) (acc m c n (Nat.lt_of_succ_lt h)) := by
  show (if (n + 1) % 4 = 0 then _ else _) = _
  rw [if_neg h0]

/-- At any point with k = 0, the first included. -/
theorem acc_base (c : Dev nD) (n : ℕ) (h : n < cfg0.N) (h0 : n % 4 = 0) :
    acc m c n h = k0_pay2 (iblk m c 0 ⟨n, h⟩) (iblk m c 1 ⟨n, h⟩) (k0_pay1 (F := F)) := by
  cases n with
  | zero => rfl
  | succ n => exact acc_restart m c n h h0

/-- The step lemmas at a grid point's own buffers and blocks. -/
theorem first_at (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t) = k0_pay2 (iblk m c 0 t) (iblk m c 1 t) (k0_pay1 (F := F)) :=
  Step.acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t)

theorem mid_at (c : Dev nD) (t : Fin cfg0.N) (hc0 : ¬cond0_0 (grid0.coords t)) (hc1 : ¬cond0_1 (grid0.coords t)) (xs0 : Vec F S1024x1024 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t) xs0 = k0_pay2 (iblk m c 0 t) (iblk m c 1 t) xs0 :=
  Step.acc_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t) xs0

theorem last_at (c : Dev nD) (t : Fin cfg0.N) (hc0 : ¬cond0_0 (grid0.coords t)) (hc1 : cond0_1 (grid0.coords t)) (xs0 : Vec F S1024x1024 .f32) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t) xs0 = k0_pay2 (iblk m c 0 t) (iblk m c 1 t) xs0 :=
  Step.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t) xs0

theorem tile_at (c : Dev nD) (t : Fin cfg0.N) (hc0 : ¬cond0_0 (grid0.coords t)) (hc1 : cond0_1 (grid0.coords t)) (xs0 : Vec F S1024x1024 .f32) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t) xs0 = k0_pay3 (iblk m c 2 t) (iblk m c 3 t) (k0_pay2 (iblk m c 0 t) (iblk m c 1 t) xs0) (iblk m c 4 t) :=
  Step.tile_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 (iblk m c 0 t) (iblk m c 1 t) (iblk m c 2 t) (iblk m c 3 t) (iblk m c 4 t) xs0

/-- What the kernel's scratch buffer holds after point `n` is the accumulator: by induction on the point, the
    three kinds of step told apart by n mod 4. -/
theorem scratch_eq (c : Dev nD) : ∀ (n : ℕ) (h : n < cfg0.N), (outsAt0 m c n h).2 = acc m c n h
  | 0, h => by
    rw [outsAt0_A m c ⟨0, h⟩ (Nat.zero_mod 4) (show ¬(0 : ℕ) % 4 = 3 by decide)]
    dsimp only
    exact first_at m c ⟨0, h⟩ _ _
  | n + 1, h => by
    by_cases h0 : (n + 1) % 4 = 0
    · have h1 : ¬(n + 1) % 4 = 3 := by omega
      rw [outsAt0_A m c ⟨n + 1, h⟩ h0 h1]
      dsimp only
      rw [first_at m c ⟨n + 1, h⟩, acc_restart m c n h h0]
    · by_cases h1 : (n + 1) % 4 = 3
      · rw [outsAt0_C m c ⟨n + 1, h⟩ h0 h1]
        dsimp only
        rw [last_at m c ⟨n + 1, h⟩, acc_step m c n h h0]
        show k0_pay2 _ _ (outsAt0 m c n _).2 = _
        rw [scratch_eq c n]
      · rw [outsAt0_B m c ⟨n + 1, h⟩ h0 h1]
        dsimp only
        rw [mid_at m c ⟨n + 1, h⟩, acc_step m c n h h0]
        show k0_pay2 _ _ (outsAt0 m c n _).2 = _
        rw [scratch_eq c n]

/-- At a point with k = 3 the output tile is the finalize arithmetic over the accumulator just completed. -/
theorem tile_eq (c : Dev nD) (t : Fin cfg0.N) (h3 : t.val % 4 = 3) :
    (outsAt0 m c t.val t.isLt).1 = k0_pay3 (iblk m c 2 t) (iblk m c 3 t) (acc m c t.val t.isLt) (iblk m c 4 t) := by
  have h0 : ¬t.val % 4 = 0 := by omega
  rw [outsAt0_C m c t h0 h3]
  dsimp only
  rw [tile_at m c t, scratch_eq m c (t.val - 1)]
  obtain ⟨n, hn⟩ := t
  cases n with
  | zero => exact absurd h3 (show ¬(0 : ℕ) % 4 = 3 by decide)
  | succ n => rw [acc_step m c n hn h0]; rfl

end Cert.KernelIdeal.Chain
end
-- ==== Proof.Arith.lean ====
/-
  The body's arithmetic, entry by entry, over the extended reals.

  Read exactly, a change of float format is the identity and a matrix product into a zero accumulator is a
  plain sum of products.  So, at row p and column q of a 1024 × 1024 tile:
    * the cleared accumulator is 0;
    * an accumulation step turns the accumulator a into  a[p,q] + Σ_k x[p,k] · w[q,k]
      (both operands are contracted along their second axis: the product is x · wᵀ);
    * the finalize step gives  (a[p,q] + bias[0,q]) + (Σ_r h[p,r] · B[0,r,q]) · 2.
-/
import proofs.«152503_j38852274159666_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section
open Idealize.ShloMosaic Idealize.ShloMosaic.ValueIdx

namespace Cert.KernelIdeal.Arith
open Cert.KernelIdeal Cert.KernelIdeal.Gen

/-- The scale the low-rank correction is multiplied by: the float 2.0, read exactly. -/
abbrev two : EReal := Ideal.ofBits .f32 0x40000000#32

/-- The cleared accumulator is zero at every entry. -/
theorem zero_block_apply (y : S1024x1024.Idx) : k0_pay1 (F := Ideal) y = 0 := by
  unfold k0_pay1
  show shapeCast S1024x1024 (broadcast S1024x1024 (Scalar.ofBits (F := Ideal) .f32 0x00000000#32)) shapeCasts_S1024x1024_S1024x1024 y = 0
  rw [shapeCast_self]
  exact Ideal.ofBits_zero_f32

/-! Which operand entries the two products read, coordinate by coordinate: the base product x · wᵀ contracts
    the second axis of both operands; the low-rank product h · b contracts h's second axis with b's first. -/

theorem base_lhs_row (i : S1024x1024.Idx) (s : dot_S1024x1024_S1024x1024_S1024x1024_1_1_0_0_n_n.contr.Idx) :
    (dot_S1024x1024_S1024x1024_S1024x1024_1_1_0_0_n_n.lhsIdx i s 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem base_lhs_k (i : S1024x1024.Idx) (s : dot_S1024x1024_S1024x1024_S1024x1024_1_1_0_0_n_n.contr.Idx) :
    (dot_S1024x1024_S1024x1024_S1024x1024_1_1_0_0_n_n.lhsIdx i s 1).val = (s ⟨0, by decide⟩).val :=
  dot_S1024x1024_S1024x1024_S1024x1024_1_1_0_0_n_n.lhsIdx_val_of_single rfl i s
theorem base_rhs_row (i : S1024x1024.Idx) (s : dot_S1024x1024_S1024x1024_S1024x1024_1_1_0_0_n_n.contr.Idx) :
    (dot_S1024x1024_S1024x1024_S1024x1024_1_1_0_0_n_n.rhsIdx i s 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem base_rhs_k (i : S1024x1024.Idx) (s : dot_S1024x1024_S1024x1024_S1024x1024_1_1_0_0_n_n.contr.Idx) :
    (dot_S1024x1024_S1024x1024_S1024x1024_1_1_0_0_n_n.rhsIdx i s 1).val = (s ⟨0, by decide⟩).val :=
  dot_S1024x1024_S1024x1024_S1024x1024_1_1_0_0_n_n.rhsIdx_val_of_single rfl i s
theorem low_lhs_row (i : S1024x1024.Idx) (s : dot_S1024x16_S16x1024_S1024x1024_1_0_0_1_n_n.contr.Idx) :
    (dot_S1024x16_S16x1024_S1024x1024_1_0_0_1_n_n.lhsIdx i s 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem low_lhs_k (i : S1024x1024.Idx) (s : dot_S1024x16_S16x1024_S1024x1024_1_0_0_1_n_n.contr.Idx) :
    (dot_S1024x16_S16x1024_S1024x1024_1_0_0_1_n_n.lhsIdx i s 1).val = (s ⟨0, by decide⟩).val :=
  dot_S1024x16_S16x1024_S1024x1024_1_0_0_1_n_n.lhsIdx_val_of_single rfl i s
theorem low_rhs_k (i : S1024x1024.Idx) (s : dot_S1024x16_S16x1024_S1024x1024_1_0_0_1_n_n.contr.Idx) :
    (dot_S1024x16_S16x1024_S1024x1024_1_0_0_1_n_n.rhsIdx i s 0).val = (s ⟨0, by decide⟩).val :=
  dot_S1024x16_S16x1024_S1024x1024_1_0_0_1_n_n.rhsIdx_val_of_single rfl i s
theorem low_rhs_col (i : S1024x1024.Idx) (s : dot_S1024x16_S16x1024_S1024x1024_1_0_0_1_n_n.contr.Idx) :
    (dot_S1024x16_S16x1024_S1024x1024_1_0_0_1_n_n.rhsIdx i s 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The base product of one step, into a zero accumulator: entry (p, q) is Σ_k x[p,k] · w[q,k]. -/
theorem base_product_apply (x w : FVec Ideal S1024x1024 .bf16) (p q : Fin 1024) :
    matmul dot_S1024x1024_S1024x1024_S1024x1024_1_1_0_0_n_n none x w (constant (F := Ideal) S1024x1024 .f32 0x00000000#32) (ix2 p q)
      = ∑ k : Fin 1024, x (ix2 p k) * w (ix2 q k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact base_lhs_row _ _
    | ⟨1, _⟩ => exact (base_lhs_k _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact base_rhs_row _ _
    | ⟨1, _⟩ => exact (base_rhs_k _ _).trans hk)
  rw [el, er]

/-- The low-rank product of the finalize step, into a zero accumulator: entry (p, q) is Σ_r h[p,r] · b[r,q]. -/
theorem lowrank_product_apply (h : FVec Ideal S1024x16 .bf16) (b : FVec Ideal S16x1024 .bf16) (p q : Fin 1024) :
    matmul dot_S1024x16_S16x1024_S1024x1024_1_0_0_1_n_n none h b (constant (F := Ideal) S1024x1024 .f32 0x00000000#32) (ix2 p q)
      = ∑ r : Fin 16, h (ix2 p r) * b (ix2 r q) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact low_lhs_row _ _
    | ⟨1, _⟩ => exact (low_lhs_k _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (low_rhs_k _ _).trans hk
    | ⟨1, _⟩ => exact low_rhs_col _ _)
  rw [el, er]

/-- One accumulation step at an entry: the accumulator there, plus the step's base product there. -/
theorem accumulate_apply (x w : FVec Ideal S1024x1024 .bf16) (a : FVec Ideal S1024x1024 .f32) (p q : Fin 1024) :
    k0_pay2 (F := Ideal) x w a (ix2 p q) = a (ix2 p q) + ∑ k : Fin 1024, x (ix2 p k) * w (ix2 q k) := by
  unfold k0_pay2
  simp only [shapeCast_self]
  exact congrArg (a (ix2 p q) + ·) (base_product_apply x w p q)

/-- The finalize step at an entry: (accumulator + bias) + (low-rank product) · 2. -/
theorem finalize_apply (h : FVec Ideal S1024x16 .bf16) (b : FVec Ideal S1x16x1024 .bf16) (a : FVec Ideal S1024x1024 .f32)
    (bias : FVec Ideal S1x1024 .f32) (p q : Fin 1024) :
    k0_pay3 (F := Ideal) h b a bias (ix2 p q)
      = (a (ix2 p q) + bias (ix2 (0 : Fin 1) q)) + (∑ r : Fin 16, h (ix2 p r) * b (ix3 (0 : Fin 1) r q)) * two := by
  unfold k0_pay3
  simp only [shapeCast_self]
  show (a (ix2 p q) + broadcastTo S1024x1024 bias broadcasts_S1x1024_S1024x1024 (ix2 p q))
      + matmul dot_S1024x16_S16x1024_S1024x1024_1_0_0_1_n_n none h (shapeCast S16x1024 b shapeCasts_S1x16x1024_S16x1024) (constant (F := Ideal) S1024x1024 .f32 0x00000000#32) (ix2 p q) * two = _
  rw [broadcastTo_1b_ab_apply, lowrank_product_apply]
  refine congrArg (fun s => (a (ix2 p q) + bias (ix2 (0 : Fin 1) q)) + s * two) (Finset.sum_congr rfl fun r _ => ?_)
  rw [shapeCast_1ab_ab_apply]

end Cert.KernelIdeal.Arith
end
-- ==== Proof.BlockSum.lean ====
/-
  Splitting a sum over a product range into blocks.

  A sum over `Fin (m * n)` is the sum, over the `m` consecutive blocks of length `n`, of each block's
  own sum: position `a * n + b` of the long range is position `b` of block `a`.  Only commutativity and
  associativity of `+` are used, so the law holds in any commutative additive monoid — in particular on
  the extended reals, where it needs no finiteness of the summands.
-/
import Mathlib.Algebra.BigOperators.Fin
import Mathlib.Logic.Equiv.Fin.Basic

namespace Cert.BlockSum

open Finset

/-- Position `b` of block `a` lies inside the long range. -/
theorem block_lt {m n : ℕ} (a : Fin m) (b : Fin n) : a.val * n + b.val < m * n := by
  have h1 : (a.val + 1) * n ≤ m * n := Nat.mul_le_mul_right n a.isLt
  have h2 : (a.val + 1) * n = a.val * n + n := Nat.succ_mul _ _
  have hb := b.isLt
  omega

/-- Sum over `Fin (m * n)`, block by block: the entry at `a * n + b` is entry `b` of block `a`. -/
theorem sum_blocks {M : Type*} [AddCommMonoid M] (m n : ℕ) (f : Fin (m * n) → M) :
    ∑ a : Fin m, ∑ b : Fin n, f ⟨a.val * n + b.val, block_lt a b⟩ = ∑ i : Fin (m * n), f i := by
  rw [← Fintype.sum_prod_type']
  refine Fintype.sum_equiv finProdFinEquiv _ _ (fun p => ?_)
  congr 1
  apply Fin.ext
  simp [finProdFinEquiv, Nat.mul_comm, Nat.add_comm]

/-- Four blocks of 1024 make 4096: a running sum that starts at zero and adds the four block sums in order
    is the sum over the whole range. -/
theorem sum_four_blocks {M : Type*} [AddCommMonoid M] (f : Fin 4096 → M) :
    (((0 + ∑ b : Fin 1024, f ⟨0 * 1024 + b.val, by omega⟩) + ∑ b : Fin 1024, f ⟨1 * 1024 + b.val, by omega⟩)
      + ∑ b : Fin 1024, f ⟨2 * 1024 + b.val, by omega⟩) + ∑ b : Fin 1024, f ⟨3 * 1024 + b.val, by omega⟩
      = ∑ i : Fin 4096, f i := by
  have h := sum_blocks 4 1024 (fun i : Fin (4 * 1024) => f ⟨i.val, i.isLt⟩)
  rw [Fin.sum_univ_four] at h
  rw [zero_add]
  exact h

end Cert.BlockSum
-- ==== Proof.Tile.lean ====
/-
  The tile a write-back point stores, as a block of one function of the arrays the kernel was launched on.

  Number the grid points row-major: point t has i = t / 16 (row tile), j = (t / 4) mod 4 (column tile) and
  k = t mod 4 (the contraction block).  The windows read, at point t:
    * the activations' block  (i, k)  and the weights' block  (j, k)  of their 1024 × 1024 tilings,
    * the 1024 × 16 block  i  of the precomputed low-rank activations,
    * the 1 × 16 × 1024 block  (i, 0, j)  of the per-example B matrices, and the 1 × 1024 block j of the bias;
  and the output window writes block (i, j).  (These are the printed index maps, decided over the 128 points.)

  A write-back point has k = 3, and the three points before it are the steps k = 0, 1, 2 of the same tile.
  So its accumulator entry (p, q) is  0 + Σ over the four contraction blocks of Σ_k x[R, 1024·kb + k] · w[C, 1024·kb + k]
  with R = 1024·i + p and C = 1024·j + q — which is the whole contraction Σ_{k < 4096} x[R, k] · w[C, k],
  because a sum may be split into consecutive blocks (commutativity and associativity of + only; nothing here
  needs the summands to be finite).
-/
import proofs.«152503_j38852274159666_2_alg».proof.Proof.Chain
import proofs.«152503_j38852274159666_2_alg».proof.Proof.Arith
import proofs.«152503_j38852274159666_2_alg».proof.Proof.BlockSum

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Tile
open Cert.KernelIdeal Cert.KernelIdeal.Gen

variable (m : (ℓ : Loc nD τ sig) → Buf (Elt Ideal) ℓ)

/-! The arrays the region is launched on, and the blocks of them the windows hand the body at point t, under
    names whose types say what they are (arrays of extended reals of literal shapes). -/

/-- The activations, flattened to [8192, 4096]. -/
abbrev arrX (c : Dev nD) : FVec Ideal S8192x4096 .bf16 := V m c main_v1
/-- The weights, [4096, 4096] (output feature, input feature). -/
abbrev arrW (c : Dev nD) : FVec Ideal S4096x4096 .bf16 := V m c main_v2
/-- The low-rank activations, flattened to [8192, 16]. -/
abbrev arrH (c : Dev nD) : FVec Ideal S8192x16 .bf16 := V m c main_v20
/-- The per-example B matrices, [8, 16, 4096]. -/
abbrev arrB (c : Dev nD) : FVec Ideal S8x16x4096 .bf16 := V m c main_v21
/-- The bias as a row, [1, 4096]. -/
abbrev arrBias (c : Dev nD) : FVec Ideal S1x4096 .f32 := V m c main_v3

abbrev blkX (c : Dev nD) (t : Fin cfg0.N) : FVec Ideal S1024x1024 .bf16 := iblk m c 0 t
abbrev blkW (c : Dev nD) (t : Fin cfg0.N) : FVec Ideal S1024x1024 .bf16 := iblk m c 1 t
abbrev blkH (c : Dev nD) (t : Fin cfg0.N) : FVec Ideal S1024x16 .bf16 := iblk m c 2 t
abbrev blkB (c : Dev nD) (t : Fin cfg0.N) : FVec Ideal S1x16x1024 .bf16 := iblk m c 3 t
abbrev blkBias (c : Dev nD) (t : Fin cfg0.N) : FVec Ideal S1x1024 .f32 := iblk m c 4 t

/-- One entry of the kernel's [8192, 4096] result, from the arrays the region is launched on: the bf16 copies X of
    the activations (flattened to [8192, 4096]) and W of the weights, the flattened low-rank activations H, the
    per-example B matrices and the bias row. Row R belongs to example R / 1024. -/
def entry (X : FVec Ideal S8192x4096 .bf16) (W : FVec Ideal S4096x4096 .bf16) (H : FVec Ideal S8192x16 .bf16)
    (B : FVec Ideal S8x16x4096 .bf16) (bias : FVec Ideal S1x4096 .f32) (R : Fin 8192) (C : Fin 4096) : EReal :=
  ((∑ k : Fin 4096, X (ix2 R k) * W (ix2 C k)) + bias (ix2 (0 : Fin 1) C))
    + (∑ r : Fin 16, H (ix2 R r) * B (ix3 (⟨R.val / 1024, by have := R.isLt; omega⟩ : Fin 8) r C)) * Arith.two

/-- The whole [8192, 4096] result. -/
def whole (X : FVec Ideal S8192x4096 .bf16) (W : FVec Ideal S4096x4096 .bf16) (H : FVec Ideal S8192x16 .bf16)
    (B : FVec Ideal S8x16x4096 .bf16) (bias : FVec Ideal S1x4096 .f32) : FVec Ideal S8192x4096 .f32 :=
  fun j => entry X W H B bias ⟨(j 0).val, (j 0).isLt⟩ ⟨(j 1).val, (j 1).isLt⟩

/-- The printed index maps at grid point t, in terms of t's position. -/
theorem index_maps : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 3) = t.val / 16 ∧ win0_3.index t (1 : Fin 3) = 0 ∧ win0_3.index t (2 : Fin 3) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-! ## Each block, read through its window -/

/-- The activations' block at point t: entry (p, k) is X[1024·(t/16) + p, 1024·(t mod 4) + k]. -/
theorem read_x (c : Dev nD) (t : Fin cfg0.N) (p k : Fin 1024) (R : Fin 8192) (K : Fin 4096)
    (hR : R.val = t.val / 16 * 1024 + p.val) (hK : K.val = t.val % 4 * 1024 + k.val) :
    blkX m c t (ix2 p k) = arrX m c (ix2 R K) := by
  obtain ⟨e0, e1, -⟩ := index_maps t
  unfold blkX iblk
  rw [View.read_apply]
  show V m c main_v1 _ = V m c main_v1 _
  refine congrArg (V m c main_v1) (funext fun a => Fin.ext ?_)
  match a with
  | ⟨0, _⟩ => show win0_0.index t (0 : Fin 2) * 1024 + 1 * p.val = R.val; rw [e0, hR]; omega
  | ⟨1, _⟩ => show win0_0.index t (1 : Fin 2) * 1024 + 1 * k.val = K.val; rw [e1, hK]; omega

/-- The weights' block at point t: entry (q, k) is W[1024·((t/4) mod 4) + q, 1024·(t mod 4) + k]. -/
theorem read_w (c : Dev nD) (t : Fin cfg0.N) (q k : Fin 1024) (C : Fin 4096) (K : Fin 4096)
    (hC : C.val = t.val / 4 % 4 * 1024 + q.val) (hK : K.val = t.val % 4 * 1024 + k.val) :
    blkW m c t (ix2 q k) = arrW m c (ix2 C K) := by
  obtain ⟨-, -, e0, e1, -⟩ := index_maps t
  unfold blkW iblk
  rw [View.read_apply]
  show V m c main_v2 _ = V m c main_v2 _
  refine congrArg (V m c main_v2) (funext fun a => Fin.ext ?_)
  match a with
  | ⟨0, _⟩ => show win0_1.index t (0 : Fin 2) * 1024 + 1 * q.val = C.val; rw [e0, hC]; omega
  | ⟨1, _⟩ => show win0_1.index t (1 : Fin 2) * 1024 + 1 * k.val = K.val; rw [e1, hK]; omega

/-- The low-rank activations' block at point t: entry (p, r) is H[1024·(t/16) + p, r]. -/
theorem read_h (c : Dev nD) (t : Fin cfg0.N) (p : Fin 1024) (r : Fin 16) (R : Fin 8192)
    (hR : R.val = t.val / 16 * 1024 + p.val) :
    blkH m c t (ix2 p r) = arrH m c (ix2 R r) := by
  obtain ⟨-, -, -, -, e0, e1, -⟩ := index_maps t
  unfold blkH iblk
  rw [View.read_apply]
  show V m c main_v20 _ = V m c main_v20 _
  refine congrArg (V m c main_v20) (funext fun a => Fin.ext ?_)
  match a with
  | ⟨0, _⟩ => show win0_2.index t (0 : Fin 2) * 1024 + 1 * p.val = R.val; rw [e0, hR]; omega
  | ⟨1, _⟩ => show win0_2.index t (1 : Fin 2) * 16 + 1 * r.val = r.val; rw [e1]; omega

/-- The B matrices' block at point t: entry (0, r, q) is B[t/16, r, 1024·((t/4) mod 4) + q]. -/
theorem read_b (c : Dev nD) (t : Fin cfg0.N) (r : Fin 16) (q : Fin 1024) (E : Fin 8) (C : Fin 4096)
    (hE : E.val = t.val / 16) (hC : C.val = t.val / 4 % 4 * 1024 + q.val) :
    blkB m c t (ix3 (0 : Fin 1) r q) = arrB m c (ix3 E r C) := by
  obtain ⟨-, -, -, -, -, -, e0, e1, e2, -⟩ := index_maps t
  unfold blkB iblk
  rw [View.read_apply]
  show V m c main_v21 _ = V m c main_v21 _
  refine congrArg (V m c main_v21) (funext fun a => Fin.ext ?_)
  match a with
  | ⟨0, _⟩ => show win0_3.index t (0 : Fin 3) * 1 + 1 * (0 : Fin 1).val = E.val; rw [e0, hE]; simp
  | ⟨1, _⟩ => show win0_3.index t (1 : Fin 3) * 16 + 1 * r.val = r.val; rw [e1]; omega
  | ⟨2, _⟩ => show win0_3.index t (2 : Fin 3) * 1024 + 1 * q.val = C.val; rw [e2, hC]; omega

/-- The bias block at point t: entry (0, q) is bias[0, 1024·((t/4) mod 4) + q]. -/
theorem read_bias (c : Dev nD) (t : Fin cfg0.N) (q : Fin 1024) (C : Fin 4096)
    (hC : C.val = t.val / 4 % 4 * 1024 + q.val) :
    blkBias m c t (ix2 (0 : Fin 1) q) = arrBias m c (ix2 (0 : Fin 1) C) := by
  obtain ⟨-, -, -, -, -, -, -, -, -, e0, e1, -⟩ := index_maps t
  unfold blkBias iblk
  rw [View.read_apply]
  show V m c main_v3 _ = V m c main_v3 _
  refine congrArg (V m c main_v3) (funext fun a => Fin.ext ?_)
  match a with
  | ⟨0, _⟩ => show win0_4.index t (0 : Fin 2) * 1 + 1 * (0 : Fin 1).val = (0 : Fin 1).val; rw [e0]; simp
  | ⟨1, _⟩ => show win0_4.index t (1 : Fin 2) * 1024 + 1 * q.val = C.val; rw [e1, hC]; omega

/-! ## The accumulator at a write-back point -/

/-- One step's contribution, in the arrays' own coordinates: at a point s of the tile (i, j) with contraction block
    kb, Σ_k x-block[p,k] · w-block[q,k] is the stretch [1024·kb, 1024·kb + 1024) of the row-by-row product. -/
theorem step_sum (c : Dev nD) (s : Fin cfg0.N) (p q : Fin 1024) (R : Fin 8192) (C : Fin 4096) (kb : ℕ) (hkb : kb < 4)
    (hR : R.val = s.val / 16 * 1024 + p.val) (hC : C.val = s.val / 4 % 4 * 1024 + q.val) (hk : s.val % 4 = kb) :
    (∑ k : Fin 1024, blkX m c s (ix2 p k) * blkW m c s (ix2 q k))
      = ∑ k : Fin 1024, arrX m c (ix2 R ⟨kb * 1024 + k.val, by have := k.isLt; omega⟩) * arrW m c (ix2 C ⟨kb * 1024 + k.val, by have := k.isLt; omega⟩) :=
  Finset.sum_congr rfl fun k _ => by
    rw [read_x m c s p k R ⟨kb * 1024 + k.val, by have := k.isLt; omega⟩ hR (by rw [hk]),
      read_w m c s q k C ⟨kb * 1024 + k.val, by have := k.isLt; omega⟩ hC (by rw [hk])]

/-- A continuing step at an entry: the accumulator of the point before there, plus this point's contribution. -/
theorem acc_step_apply (c : Dev nD) (n : ℕ) (h : n + 1 < cfg0.N) (h0 : ¬(n + 1) % 4 = 0) (p q : Fin 1024) :
    Chain.acc m c (n + 1) h (ix2 p q)
      = Chain.acc m c n (Nat.lt_of_succ_lt h) (ix2 p q) + ∑ k : Fin 1024, blkX m c ⟨n + 1, h⟩ (ix2 p k) * blkW m c ⟨n + 1, h⟩ (ix2 q k) := by
  rw [Chain.acc_step m c n h h0]
  exact Arith.accumulate_apply (iblk m c 0 ⟨n + 1, h⟩) (iblk m c 1 ⟨n + 1, h⟩) (Chain.acc m c n (Nat.lt_of_succ_lt h)) p q

/-- A restarting step (k = 0) at an entry: zero, plus this point's contribution. -/
theorem acc_base_apply (c : Dev nD) (n : ℕ) (h : n < cfg0.N) (h0 : n % 4 = 0) (p q : Fin 1024) :
    Chain.acc m c n h (ix2 p q) = 0 + ∑ k : Fin 1024, blkX m c ⟨n, h⟩ (ix2 p k) * blkW m c ⟨n, h⟩ (ix2 q k) := by
  rw [Chain.acc_base m c n h h0]
  refine (Arith.accumulate_apply (iblk m c 0 ⟨n, h⟩) (iblk m c 1 ⟨n, h⟩) (k0_pay1 (F := Ideal)) p q).trans ?_
  rw [Arith.zero_block_apply]

/-- At a write-back point (k = 3) the accumulator entry (p, q) is the WHOLE contraction of row R of the
    activations with row C of the weights: the four steps k = 0, 1, 2, 3 of the tile contribute the four
    consecutive blocks of the 4096 terms. -/
theorem acc_at_writeback (c : Dev nD) (t : Fin cfg0.N) (h3 : t.val % 4 = 3) (p q : Fin 1024) (R : Fin 8192) (C : Fin 4096)
    (hR : R.val = t.val / 16 * 1024 + p.val) (hC : C.val = t.val / 4 % 4 * 1024 + q.val) :
    Chain.acc m c t.val t.isLt (ix2 p q) = ∑ k : Fin 4096, arrX m c (ix2 R k) * arrW m c (ix2 C k) := by
  obtain ⟨tv, ht⟩ := t
  dsimp only at h3 hR hC ⊢
  obtain ⟨n, rfl⟩ : ∃ n, tv = n + 3 := ⟨tv - 3, by omega⟩
  have hN : cfg0.N = 128 := N_0
  have h2 : n + 2 < cfg0.N := by omega
  have h1 : n + 1 < cfg0.N := by omega
  have h0 : n < cfg0.N := by omega
  show Chain.acc m c (n + 2 + 1) ht (ix2 p q) = _
  rw [acc_step_apply m c (n + 2) ht (by omega) p q]
  show Chain.acc m c (n + 1 + 1) h2 (ix2 p q) + _ = _
  rw [acc_step_apply m c (n + 1) h2 (by omega) p q, acc_step_apply m c n h1 (by omega) p q, acc_base_apply m c n h0 (by omega) p q]
  rw [step_sum m c ⟨n, h0⟩ p q R C 0 (by omega) (by dsimp only; omega) (by dsimp only; omega) (by dsimp only; omega),
    step_sum m c ⟨n + 1, h1⟩ p q R C 1 (by omega) (by dsimp only; omega) (by dsimp only; omega) (by dsimp only; omega),
    step_sum m c ⟨n + 2, h2⟩ p q R C 2 (by omega) (by dsimp only; omega) (by dsimp only; omega) (by dsimp only; omega),
    step_sum m c ⟨n + 2 + 1, ht⟩ p q R C 3 (by omega) (by dsimp only; omega) (by dsimp only; omega) (by dsimp only; omega)]
  exact BlockSum.sum_four_blocks (fun i : Fin 4096 => arrX m c (ix2 R i) * arrW m c (ix2 C i))

/-! ## What a write-back point stores -/

/-- WHAT POINT t WRITES BACK is block t of the whole result: entry (p, q) of the tile is the entry of the result at
    row 1024·(t/16) + p and column 1024·((t/4) mod 4) + q. -/
theorem flushed_eq (c : Dev nD) (t : Fin cfg0.N) (hf : (cfg0.win 5).flush t = true) :
    (dats m 0 c).flushed 5 t = ((cfg0.win 5).blk t).view.read (Elt Ideal)
      (whole (arrX m c) (arrW m c) (arrH m c) (arrB m c) (arrBias m c)) := by
  have h3 : t.val % 4 = 3 := (flush0_5 t).mp hf
  have hN : cfg0.N = 128 := N_0
  have ht := t.isLt
  show (cfg0.win 5).cut (grid0.coords t) ((dats m 0 c).after 5 t) = _
  rw [after0_5, Chain.tile_eq m c t h3]
  funext y
  obtain ⟨p, q, rfl⟩ : ∃ (p q : Fin 1024), y = ix2 p q := ⟨y 0, y 1, eq_ix2 y⟩
  rw [View.read_apply]
  obtain ⟨-, -, -, -, -, -, -, -, -, -, -, e0, e1⟩ := index_maps t
  have hp := p.isLt
  have hq := q.isLt
  have hemb : ((cfg0.win 5).blk t).view.emb (ix2 p q)
      = ix2 (⟨t.val / 16 * 1024 + p.val, by omega⟩ : Fin 8192) (⟨t.val / 4 % 4 * 1024 + q.val, by omega⟩ : Fin 4096) :=
    funext fun a => Fin.ext (by
      match a with
      | ⟨0, _⟩ => show win0_5.index t (0 : Fin 2) * 1024 + 1 * p.val = t.val / 16 * 1024 + p.val; rw [e0]; omega
      | ⟨1, _⟩ => show win0_5.index t (1 : Fin 2) * 1024 + 1 * q.val = t.val / 4 % 4 * 1024 + q.val; rw [e1]; omega)
  rw [hemb]
  refine (Arith.finalize_apply (iblk m c 2 t) (iblk m c 3 t) (Chain.acc m c t.val t.isLt) (iblk m c 4 t) p q).trans ?_
  show _ = entry (arrX m c) (arrW m c) (arrH m c) (arrB m c) (arrBias m c)
    (⟨t.val / 16 * 1024 + p.val, by omega⟩ : Fin 8192) (⟨t.val / 4 % 4 * 1024 + q.val, by omega⟩ : Fin 4096)
  unfold entry
  rw [acc_at_writeback m c t h3 p q ⟨t.val / 16 * 1024 + p.val, by omega⟩ ⟨t.val / 4 % 4 * 1024 + q.val, by omega⟩ rfl rfl]
  rw [show (iblk m c 4 t : FVec Ideal S1x1024 .f32) (ix2 (0 : Fin 1) q) = arrBias m c (ix2 (0 : Fin 1) ⟨t.val / 4 % 4 * 1024 + q.val, by omega⟩) from
    read_bias m c t q ⟨t.val / 4 % 4 * 1024 + q.val, by omega⟩ rfl]
  refine congrArg (fun s => (∑ k : Fin 4096, arrX m c (ix2 (⟨t.val / 16 * 1024 + p.val, by omega⟩ : Fin 8192) k) * arrW m c (ix2 (⟨t.val / 4 % 4 * 1024 + q.val, by omega⟩ : Fin 4096) k)
      + arrBias m c (ix2 (0 : Fin 1) ⟨t.val / 4 % 4 * 1024 + q.val, by omega⟩)) + s * Arith.two) (Finset.sum_congr rfl fun r _ => ?_)
  rw [show (iblk m c 2 t : FVec Ideal S1024x16 .bf16) (ix2 p r) = arrH m c (ix2 (⟨t.val / 16 * 1024 + p.val, by omega⟩ : Fin 8192) r) from
      read_h m c t p r ⟨t.val / 16 * 1024 + p.val, by omega⟩ rfl,
    show (iblk m c 3 t : FVec Ideal S1x16x1024 .bf16) (ix3 (0 : Fin 1) r q)
        = arrB m c (ix3 (⟨(t.val / 16 * 1024 + p.val) / 1024, by omega⟩ : Fin 8) r (⟨t.val / 4 % 4 * 1024 + q.val, by omega⟩ : Fin 4096)) from
      read_b m c t r q ⟨(t.val / 16 * 1024 + p.val) / 1024, by omega⟩ ⟨t.val / 4 % 4 * 1024 + q.val, by omega⟩ (by dsimp only; omega) rfl]

end Cert.KernelIdeal.Tile
end
-- ==== Proof.Final.lean ====
/-
  From tiles to the whole result, and through the reshape that follows the kernel.

  The 32 write-back points (k = 3) store the 8 × 4 tiles (i, j) of the [8192, 4096] result, and every entry
  (R, C) lies in the tile i = R / 1024, j = C / 1024, written at point 16·i + 4·j + 3.  So after the last
  point the array holds the whole-result function at every entry.  The program then reshapes it to
  [8, 1024, 4096]: entry (b, t, o) of the final result is entry (1024·b + t, o) of the array (same row-major
  position).
-/
import proofs.«152503_j38852274159666_2_alg».proof.Proof.Tile
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen

variable (m : (ℓ : Loc nD τ sig) → Buf (Elt Ideal) ℓ) (ρ : Dev nD → PrngReg)

/-- An entry of the array is in point t's tile iff each coordinate is in the tile's range on its axis. -/
theorem mem_tile (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v22).slice (win0_5.rect t)).set ↔ _
  rw [View.set_slice_whole, Rect.mem_set_unit]
  exact Iff.rfl

/-- Every entry (R, C) is in the tile some write-back point stores: the point 16·(R/1024) + 4·(C/1024) + 3. -/
theorem covered (i : S8192x4096.Idx) :
    ∃ t : Fin cfg0.N, (cfg0.win 5).flush t = true ∧ i ∈ ((cfg0.win 5).blk t).view.set := by
  have hN : cfg0.N = 128 := N_0
  have hi0 : (i 0).val < 8192 := (i 0).isLt
  have hi1 : (i 1).val < 4096 := (i 1).isLt
  obtain ⟨t, htv⟩ : ∃ t : Fin cfg0.N, t.val = (i 0).val / 1024 * 16 + (i 1).val / 1024 * 4 + 3 := ⟨⟨_, by omega⟩, rfl⟩
  refine ⟨t, (flush0_5 t).mpr (by omega), ?_⟩
  rw [mem_tile]
  obtain ⟨-, -, -, -, -, -, -, -, -, -, -, e0, e1⟩ := Tile.index_maps t
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- THE ARRAY after the region: the whole-result function of the arrays the region was launched on. -/
theorem array_eq (c : Dev nD) :
    (dats m 0 c).arrAt 5 cfg0.N = Tile.whole (Tile.arrX m c) (Tile.arrW m c) (Tile.arrH m c) (Tile.arrB m c) (Tile.arrBias m c) :=
  (dats m 0 c).arrAt_eq_of_cover 5 _ (fun t hf => Tile.flushed_eq m c t hf) covered

/-- The program's result: the reshape, after the region, of that array. -/
theorem result_eq (c : Dev nD) :
    Pipeline.afterTail₀ cfgs (dats m) 0 (V0 m) [hostOps1] c main_v23
      = shapeCast S8x1024x4096 (Tile.whole (Tile.arrX m c) (Tile.arrW m c) (Tile.arrH m c) (Tile.arrB m c) (Tile.arrBias m c))
          shapeCasts_S8192x4096_S8x1024x4096 := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.devRef .tc main_v22)
      = Tile.whole (Tile.arrX m c) (Tile.arrW m c) (Tile.arrH m c) (Tile.arrB m c) (Tile.arrBias m c) :=
    (Pipeline.withArrays_arr spec0 launch0.win.arr_inj c (V0 m c) (fun w => (dats m 0 c).arrAt w cfg0.N) 5).trans (array_eq m c)
  rw [e]
  rfl

end Cert.KernelIdeal.Final
end
-- ==== Proof.Launched.lean ====
/-
  The arrays the kernel is launched on, as functions of the program's arguments.

  Before the kernel runs, the program flattens the activations x to [8192, 4096] and rounds them and the weights
  to bf16 (the identity, read exactly); makes the bias a row; picks, per example, the A and B matrices of the
  example's adapter (negative adapter numbers wrap around by 32, as array indexing does); multiplies x by the
  picked A to get the low-rank activations and flattens them to [8192, 16].  The picked matrices and the
  low-rank activations are kept here as two named functions of the arguments — the same two functions appear in
  the reference — and are never opened.
-/
import proofs.«152503_j38852274159666_2_alg».proof.Proof.Tile
import Idealize.ShloMosaic.Lib.StableHlo.Run

set_option maxRecDepth 16384

noncomputable section
open Idealize.ShloMosaic Idealize.ShloMosaic.TcCoe Idealize.SL.Sem Idealize.ShloMosaic.ValueIdx

namespace Cert.KernelIdeal.Launched
open Cert.KernelIdeal Cert.KernelIdeal.Gen

/-- The per-example B matrices: row `adapter` of the table of B matrices, for each example. -/
def pickedB {F : FTy → Type} [FloatOps F] (x1 : (⟨S8, .i32⟩ : BufTy).Contents (Elt F)) (x5 : (⟨S32x16x4096, .f32⟩ : BufTy).Contents (Elt F)) :
    (⟨S8x16x4096, .f32⟩ : BufTy).Contents (Elt F) :=
  Host.gather gather_S32x16x4096_S8x1_S8x16x4096_12_0_n_n_0_1_1164096 x5 (broadcastInDim S8x1 ![0] bcast_S8_S8x1_0 (select (cmpi .slt x1 (broadcastInDim S8 ![] bcast_S_S8 (constantI S_ 32 0#32))) (addi x1 (broadcastInDim S8 ![] bcast_S_S8 (constantI S_ 32 32#32))) x1))

/-- The low-rank activations: x times the example's picked A matrix. -/
def lowRank {F : FTy → Type} [FloatOps F] (x0 : (⟨S8x1024x4096, .f32⟩ : BufTy).Contents (Elt F)) (x1 : (⟨S8, .i32⟩ : BufTy).Contents (Elt F))
    (x4 : (⟨S32x4096x16, .f32⟩ : BufTy).Contents (Elt F)) : (⟨S8x1024x16, .f32⟩ : BufTy).Contents (Elt F) :=
  Host.dotGeneral dot_S8x1024x4096_S8x4096x16_S8x1024x16_2_1_1_2_0_0 none x0
    (Host.gather gather_S32x4096x16_S8x1_S8x4096x16_12_0_n_n_0_1_1409616 x4 (broadcastInDim S8x1 ![0] bcast_S8_S8x1_0 (select (cmpi .slt x1 (broadcastInDim S8 ![] bcast_S_S8 (constantI S_ 32 0#32))) (addi x1 (broadcastInDim S8 ![] bcast_S_S8 (constantI S_ 32 32#32))) x1)))

variable (m : (ℓ : Loc nD τ sig) → Buf (Elt Ideal) ℓ)

theorem arrX_eq (c : Dev nD) :
    Tile.arrX m c = truncf .bf16 (shapeCast S8192x4096 (m ((c : Thread nD τ).loc main_arg0)) shapeCasts_S8x1024x4096_S8192x4096) bitsLt_bf16_f32 := by
  show StableHlo.after hostOps0 (fun b => m (c, b)) (Proc.devRef .tc main_v1) = _
  after_results <;> rfl

theorem arrW_eq (c : Dev nD) :
    Tile.arrW m c = truncf .bf16 (m ((c : Thread nD τ).loc main_arg2)) bitsLt_bf16_f32 := by
  show StableHlo.after hostOps0 (fun b => m (c, b)) (Proc.devRef .tc main_v2) = _
  after_results <;> rfl

theorem arrBias_eq (c : Dev nD) :
    Tile.arrBias m c = shapeCast S1x4096 (m ((c : Thread nD τ).loc main_arg3)) shapeCasts_S4096_S1x4096 := by
  show StableHlo.after hostOps0 (fun b => m (c, b)) (Proc.devRef .tc main_v3) = _
  after_results <;> rfl

set_option maxHeartbeats 2000000 in
theorem arrH_eq (c : Dev nD) :
    Tile.arrH m c = truncf .bf16 (shapeCast S8192x16 (lowRank (F := Ideal) (m ((c : Thread nD τ).loc main_arg0)) (m ((c : Thread nD τ).loc main_arg1)) (m ((c : Thread nD τ).loc main_arg4))) shapeCasts_S8x1024x16_S8192x16) bitsLt_bf16_f32 := by
  show StableHlo.after hostOps0 (fun b => m (c, b)) (Proc.devRef .tc main_v20) = _
  unfold lowRank
  after_results_simp <;> rfl

theorem arrB_eq (c : Dev nD) :
    Tile.arrB m c = truncf .bf16 (pickedB (F := Ideal) (m ((c : Thread nD τ).loc main_arg1)) (m ((c : Thread nD τ).loc main_arg5))) bitsLt_bf16_f32 := by
  show StableHlo.after hostOps0 (fun b => m (c, b)) (Proc.devRef .tc main_v21) = _
  unfold pickedB
  after_results <;> rfl

/-! ## The launched arrays, entry by entry -/

/-- Row R = 1024·b + t of the flattened activations is token t of example b. -/
theorem arrX_apply (c : Dev nD) (R : Fin 8192) (k : Fin 4096) (b : Fin 8) (t : Fin 1024) (hR : R.val = b.val * 1024 + t.val) :
    Tile.arrX m c (ix2 R k) = m ((c : Thread nD τ).loc main_arg0) (ix3 b t k) := by
  rw [arrX_eq]
  show shapeCast S8192x4096 (m ((c : Thread nD τ).loc main_arg0)) shapeCasts_S8x1024x4096_S8192x4096 (ix2 R k) = _
  refine shapeCast_apply _ _ _ _ ?_
  show (S8x1024x4096.rowMajor (ix3 b t k)).val = (S8192x4096.rowMajor (ix2 R k)).val
  rw [Shape.rowMajor_val_three, Shape.rowMajor_val_two]
  show (b.val * 1024 + t.val) * 4096 + k.val = R.val * 4096 + k.val
  rw [hR]

/-- The weights are the weights. -/
theorem arrW_apply (c : Dev nD) (o k : Fin 4096) :
    Tile.arrW m c (ix2 o k) = m ((c : Thread nD τ).loc main_arg2) (ix2 o k) := by
  rw [arrW_eq]; rfl

/-- The bias row at column o is the bias at o. -/
theorem arrBias_apply (c : Dev nD) (o : Fin 4096) :
    Tile.arrBias m c (ix2 (0 : Fin 1) o) = m ((c : Thread nD τ).loc main_arg3) (ix1 o) := by
  rw [arrBias_eq]
  refine shapeCast_apply _ _ _ _ ?_
  show (S4096.rowMajor (ix1 o)).val = (S1x4096.rowMajor (ix2 (0 : Fin 1) o)).val
  rw [Shape.rowMajor_val_one, Shape.rowMajor_val_two]
  show o.val = 0 * 4096 + o.val
  omega

/-- Row R = 1024·b + t of the flattened low-rank activations is token t of example b. -/
theorem arrH_apply (c : Dev nD) (R : Fin 8192) (r : Fin 16) (b : Fin 8) (t : Fin 1024) (hR : R.val = b.val * 1024 + t.val) :
    Tile.arrH m c (ix2 R r)
      = lowRank (F := Ideal) (m ((c : Thread nD τ).loc main_arg0)) (m ((c : Thread nD τ).loc main_arg1)) (m ((c : Thread nD τ).loc main_arg4)) (ix3 b t r) := by
  rw [arrH_eq]
  show shapeCast S8192x16 (lowRank (F := Ideal) (m ((c : Thread nD τ).loc main_arg0)) (m ((c : Thread nD τ).loc main_arg1)) (m ((c : Thread nD τ).loc main_arg4))) shapeCasts_S8x1024x16_S8192x16 (ix2 R r) = _
  refine shapeCast_apply _ _ _ _ ?_
  rw [Shape.rowMajor_val_three, Shape.rowMajor_val_two]
  show (b.val * 1024 + t.val) * 16 + r.val = R.val * 16 + r.val
  rw [hR]

/-- The B matrices are the picked B matrices. -/
theorem arrB_apply (c : Dev nD) (E : Fin 8) (r : Fin 16) (o : Fin 4096) (b : Fin 8) (hE : E.val = b.val) :
    Tile.arrB m c (ix3 E r o)
      = pickedB (F := Ideal) (m ((c : Thread nD τ).loc main_arg1)) (m ((c : Thread nD τ).loc main_arg5)) (ix3 b r o) := by
  obtain rfl : E = b := Fin.ext hE
  rw [arrB_eq]; rfl

end Cert.KernelIdeal.Launched
end
-- ==== Proof.Adapted.lean ====
/-
  The adapted linear layer, entry by entry, over the extended reals.

  For example b, token t and output feature o:

      y[b,t,o] = ( Σ_k x[b,t,k] · W[o,k]  +  bias[o] )  +  ( Σ_r h[b,t,r] · B[b,r,o] ) · 2

  where h are the low-rank activations (x times the example's A matrix) and B the example's B matrix.  Both
  programs compute exactly this, with the additions associated exactly as written; h and B are parameters here.
-/
import Idealize.ShloMosaic.PureOps.Ideal
import Idealize.ShloMosaic.Lib.ValueIdx

noncomputable section
open Idealize.ShloMosaic Idealize.ShloMosaic.ValueIdx

namespace Cert.Adapted

/-- The scale of the low-rank correction: the float 2.0, read exactly. -/
abbrev two : EReal := Ideal.ofBits .f32 0x40000000#32

/-- One entry of the layer's output. -/
def entry (x : (⟨3, ![8, 1024, 4096]⟩ : Shape).Idx → EReal) (W : (⟨2, ![4096, 4096]⟩ : Shape).Idx → EReal)
    (bias : (⟨1, ![4096]⟩ : Shape).Idx → EReal) (h : (⟨3, ![8, 1024, 16]⟩ : Shape).Idx → EReal)
    (B : (⟨3, ![8, 16, 4096]⟩ : Shape).Idx → EReal) (b : Fin 8) (t : Fin 1024) (o : Fin 4096) : EReal :=
  ((∑ k : Fin 4096, x (ix3 b t k) * W (ix2 o k)) + bias (ix1 o)) + (∑ r : Fin 16, h (ix3 b t r) * B (ix3 b r o)) * two

/-- The layer's whole output, [8, 1024, 4096]. -/
def output (x : (⟨3, ![8, 1024, 4096]⟩ : Shape).Idx → EReal) (W : (⟨2, ![4096, 4096]⟩ : Shape).Idx → EReal)
    (bias : (⟨1, ![4096]⟩ : Shape).Idx → EReal) (h : (⟨3, ![8, 1024, 16]⟩ : Shape).Idx → EReal)
    (B : (⟨3, ![8, 16, 4096]⟩ : Shape).Idx → EReal) : (⟨3, ![8, 1024, 4096]⟩ : Shape).Idx → EReal :=
  fun i => entry x W bias h B ⟨(i 0).val, (i 0).isLt⟩ ⟨(i 1).val, (i 1).isLt⟩ ⟨(i 2).val, (i 2).isLt⟩

end Cert.Adapted
end
-- ==== Proof.Layer.lean ====
/-
  The kernel computes the adapted linear layer.

  Entry (b, t, o) of the program's result is entry (1024·b + t, o) of the array the kernel fills, and that entry,
  written in the program's arguments, is the layer's formula: row 1024·b + t of the flattened activations is token
  t of example b (and likewise for the low-rank activations), and that row belongs to example b, whose B matrix is
  the one the kernel's window picked.
-/
import proofs.«152503_j38852274159666_2_alg».proof.Proof.Final
import proofs.«152503_j38852274159666_2_alg».proof.Proof.Launched
import proofs.«152503_j38852274159666_2_alg».proof.Proof.Adapted

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Layer
open Cert.KernelIdeal Cert.KernelIdeal.Gen

variable (m : (ℓ : Loc nD τ sig) → Buf (Elt Ideal) ℓ) (ρ : Dev nD → PrngReg)

/-- The layer's output of the program's arguments as launched on core c. -/
abbrev expected (c : Dev nD) : (⟨3, ![8, 1024, 4096]⟩ : Shape).Idx → EReal :=
  Cert.Adapted.output (m ((c : Thread nD τ).loc main_arg0)) (m ((c : Thread nD τ).loc main_arg2)) (m ((c : Thread nD τ).loc main_arg3))
    (Launched.lowRank (F := Ideal) (m ((c : Thread nD τ).loc main_arg0)) (m ((c : Thread nD τ).loc main_arg1)) (m ((c : Thread nD τ).loc main_arg4)))
    (Launched.pickedB (F := Ideal) (m ((c : Thread nD τ).loc main_arg1)) (m ((c : Thread nD τ).loc main_arg5)))

/-- The program's result is the layer's output. -/
theorem output_eq (c : Dev nD) :
    Pipeline.afterTail₀ cfgs (dats m) 0 (V0 m) [hostOps1] c main_v23 = expected m c := by
  rw [Final.result_eq]
  funext i
  obtain ⟨b, t, o, rfl⟩ : ∃ (b : Fin 8) (t : Fin 1024) (o : Fin 4096), i = ix3 b t o := ⟨i 0, i 1, i 2, eq_ix3 i⟩
  have hb := b.isLt
  have ht := t.isLt
  refine (shapeCast_apply _ shapeCasts_S8192x4096_S8x1024x4096 (ix3 b t o) (ix2 (⟨b.val * 1024 + t.val, by omega⟩ : Fin 8192) o) ?_).trans ?_
  · rw [Shape.rowMajor_val_two, Shape.rowMajor_val_three]
    rfl
  show Tile.entry (Tile.arrX m c) (Tile.arrW m c) (Tile.arrH m c) (Tile.arrB m c) (Tile.arrBias m c) (⟨b.val * 1024 + t.val, by omega⟩ : Fin 8192) o
      = Cert.Adapted.entry _ _ _ _ _ b t o
  unfold Tile.entry Cert.Adapted.entry
  refine congrArg₂ (fun a s => a + s * Cert.Adapted.two) (congrArg₂ (· + ·) (Finset.sum_congr rfl fun k _ => ?_) ?_) (Finset.sum_congr rfl fun r _ => ?_)
  · rw [Launched.arrX_apply m c _ k b t rfl, Launched.arrW_apply m c o k]
  · exact Launched.arrBias_apply m c o
  · rw [Launched.arrH_apply m c _ r b t rfl, Launched.arrB_apply m c _ r o b (by dsimp only; omega)]

/-- THE RUN, READ: every weakly fair execution of the program terminates with its result at the layer's output of
    its arguments, and the arguments unchanged. -/
theorem run : θ_run defs (onTc (τ := τ) (main (F := Ideal))) ⟨m, fun _ => 0, ρ⟩ (fun r => ∀ c : Dev nD,
      r.2.mem ((c.tc : Thread nD τ).loc main_v23) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v23 (Pipeline.mem_restRefs_of main_v23 (by decide) (by decide))).trans (output_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Layer
end
-- ==== Proof.RefLayer.lean ====
/-
  The reference computes the adapted linear layer.

  Its program is: the einsum x·Wᵀ, plus the bias broadcast over examples and tokens; the picked A and B matrices;
  the low-rank activations x·A and then (x·A)·B, both batched over the example; times 2; and the sum of the two
  parts.  Read entry by entry (each contraction a plain sum, each broadcast a re-indexing) this is the layer's
  formula with the low-rank activations and the picked B matrices as they stand in the program.
-/
import proofs.«152503_j38852274159666_2_alg».proof.Proof.Gen.ReferenceIdeal.Read
import proofs.«152503_j38852274159666_2_alg».proof.Proof.Adapted

noncomputable section
open Idealize.ShloMosaic Idealize.ShloMosaic.TcCoe Idealize.SL.Sem Idealize.ShloMosaic.ValueIdx

namespace Cert.ReferenceIdeal.Layer
open Cert.ReferenceIdeal Cert.ReferenceIdeal.Gen Cert.ReferenceIdeal.Read

theorem reference_eq (x0 : (⟨S8x1024x4096, .f32⟩ : BufTy).Contents (Elt Ideal)) (x1 : (⟨S8, .i32⟩ : BufTy).Contents (Elt Ideal))
    (x2 : (⟨S4096x4096, .f32⟩ : BufTy).Contents (Elt Ideal)) (x3 : (⟨S4096, .f32⟩ : BufTy).Contents (Elt Ideal))
    (x4 : (⟨S32x4096x16, .f32⟩ : BufTy).Contents (Elt Ideal)) (x5 : (⟨S32x16x4096, .f32⟩ : BufTy).Contents (Elt Ideal)) :
    val_main_v22 (F := Ideal) x0 x1 x2 x3 x4 x5
      = Cert.Adapted.output x0 x2 x3 (val_main_v18 (F := Ideal) x0 x1 x4) (val_main_v17 (F := Ideal) x1 x5) := by
  funext i
  have e0l : ∀ k : Fin 4096, lidx_main_v0 i k = ix3 (⟨(i 0).val, (i 0).isLt⟩ : Fin 8) (⟨(i 1).val, (i 1).isLt⟩ : Fin 1024) k :=
    fun k => funext fun a => Fin.ext (by match a with | ⟨0, _⟩ => rfl | ⟨1, _⟩ => rfl | ⟨2, _⟩ => rfl)
  have e0r : ∀ k : Fin 4096, ridx_main_v0 i k = ix2 (⟨(i 2).val, (i 2).isLt⟩ : Fin 4096) k :=
    fun k => funext fun a => Fin.ext (by match a with | ⟨0, _⟩ => rfl | ⟨1, _⟩ => rfl)
  have eb : idx_main_v1 (idx_main_v2 i) = ix1 (⟨(i 2).val, (i 2).isLt⟩ : Fin 4096) :=
    funext fun a => Fin.ext (by match a with | ⟨0, _⟩ => rfl)
  have e19l : ∀ r : Fin 16, lidx_main_v19 i r = ix3 (⟨(i 0).val, (i 0).isLt⟩ : Fin 8) (⟨(i 1).val, (i 1).isLt⟩ : Fin 1024) r :=
    fun r => funext fun a => Fin.ext (by match a with | ⟨0, _⟩ => rfl | ⟨1, _⟩ => rfl | ⟨2, _⟩ => rfl)
  have e19r : ∀ r : Fin 16, ridx_main_v19 i r = ix3 (⟨(i 0).val, (i 0).isLt⟩ : Fin 8) r (⟨(i 2).val, (i 2).isLt⟩ : Fin 4096) :=
    fun r => funext fun a => Fin.ext (by match a with | ⟨0, _⟩ => rfl | ⟨1, _⟩ => rfl | ⟨2, _⟩ => rfl)
  rw [val_main_v22_apply, val_main_v3_apply, val_main_v21_apply, val_main_v0_apply, val_main_v2_apply, val_main_v1_apply,
    val_main_v19_apply, val_main_v20_apply, val_main_cst_apply]
  simp only [e0l, e0r, eb, e19l, e19r, Ideal.addf_def, Ideal.mulf_def, Ideal.ofBits_def]
  rfl

end Cert.ReferenceIdeal.Layer
end
-- ==== Proof.lean ====
/-
  A linear layer with per-example low-rank adapters: the tiled kernel and the plain reference agree.

  Both programs compute, for example b, token t and output feature o,

      y[b,t,o] = ( Σ_k x[b,t,k] · W[o,k]  +  bias[o] )  +  ( Σ_r h[b,t,r] · B[b,r,o] ) · 2 ,

  where A and B are the matrices of the example's adapter and h = x · A.  Picking the adapters' matrices and forming
  h are the same operations on the same arguments in both programs, so they enter as the same two functions of the
  arguments and are never opened.

  The reference contracts all 4096 input features at once.  The kernel walks a grid of 8 × 4 output tiles of
  1024 × 1024 and, for each tile, four steps over blocks of 1024 input features, keeping the partial products in an
  accumulator: cleared at the first step, and at the fourth step combined with the bias row and twice the low-rank
  product and written out.  Read over the extended reals (where the conversions to bf16 are the identity) the
  accumulator at the fourth step is 0 + the four blocks' sums, which is the whole contraction because a finite sum
  may be split into consecutive blocks — commutativity and associativity of addition only, so the finiteness of the
  inputs is never used.  The remaining additions and the product with 2 are associated identically in both programs.

  The modules: BlockSum (the split of a sum), Adapted (the formula), RefLayer (the reference is the formula),
  Step and Chain (what each grid step leaves; the accumulator by induction on the point), Arith (the body's
  arithmetic entry by entry), Tile (each write-back stores a block of one whole-array function), Final (the tiles
  cover the array; the reshape after the kernel), Launched (the arrays the kernel starts from, in the arguments),
  Layer (the kernel's result is the formula).  Each program's run — termination, no fault, arguments unchanged —
  is the generated one.
-/
import proofs.«152503_j38852274159666_2_alg».proof.Defs
import proofs.«152503_j38852274159666_2_alg».proof.Proof.Gen.Kernel
import proofs.«152503_j38852274159666_2_alg».proof.Proof.Gen.Kernel.Skeleton
import proofs.«152503_j38852274159666_2_alg».proof.Proof.Gen.Kernel.Launch
import proofs.«152503_j38852274159666_2_alg».proof.Proof.Gen.Kernel.Points
import proofs.«152503_j38852274159666_2_alg».proof.Proof.Gen.Kernel.Frame
import proofs.«152503_j38852274159666_2_alg».proof.Proof.Gen.KernelIdeal
import proofs.«152503_j38852274159666_2_alg».proof.Proof.Gen.KernelIdeal.Skeleton
import proofs.«152503_j38852274159666_2_alg».proof.Proof.Gen.KernelIdeal.Launch
import proofs.«152503_j38852274159666_2_alg».proof.Proof.Gen.KernelIdeal.Points
import proofs.«152503_j38852274159666_2_alg».proof.Proof.Gen.KernelIdeal.Frame
import proofs.«152503_j38852274159666_2_alg».proof.Proof.Gen.ReferenceIdeal
import proofs.«152503_j38852274159666_2_alg».proof.Proof.Gen.ReferenceIdeal.Run
import proofs.«152503_j38852274159666_2_alg».proof.Proof.Gen.ReferenceIdeal.Read
import proofs.«152503_j38852274159666_2_alg».proof.Proof.Gen.Pre_finite_inputs
import Idealize.ShloMosaic.Adequacy
import Idealize.ShloMosaic.Init
import proofs.«152503_j38852274159666_2_alg».proof.Proof.Layer
import proofs.«152503_j38852274159666_2_alg».proof.Proof.RefLayer

noncomputable section

namespace Cert.Proof

open Idealize.ShloMosaic Idealize.SL.Sem

/-- The low-rank activations are one function of the arguments in both programs: x times the picked A matrices. -/
theorem lowRank_same (x0 : (⟨Cert.ReferenceIdeal.S8x1024x4096, .f32⟩ : BufTy).Contents (Elt Ideal))
    (x1 : (⟨Cert.ReferenceIdeal.S8, .i32⟩ : BufTy).Contents (Elt Ideal))
    (x4 : (⟨Cert.ReferenceIdeal.S32x4096x16, .f32⟩ : BufTy).Contents (Elt Ideal)) :
    Cert.ReferenceIdeal.Read.val_main_v18 (F := Ideal) x0 x1 x4 = Cert.KernelIdeal.Launched.lowRank (F := Ideal) x0 x1 x4 := rfl

/-- The picked B matrices are one function of the arguments in both programs. -/
theorem pickedB_same (x1 : (⟨Cert.ReferenceIdeal.S8, .i32⟩ : BufTy).Contents (Elt Ideal))
    (x5 : (⟨Cert.ReferenceIdeal.S32x16x4096, .f32⟩ : BufTy).Contents (Elt Ideal)) :
    Cert.ReferenceIdeal.Read.val_main_v17 (F := Ideal) x1 x5 = Cert.KernelIdeal.Launched.pickedB (F := Ideal) x1 x5 := rfl

/-- The kernel as printed runs: the generated frame. -/
theorem frame_kernel : Cert.frame_Kernel := fun m ρ _ => Cert.Kernel.Gen.frame m ρ

/-- The kernel read over the extended reals runs: the generated frame. -/
theorem frame_kernelIdeal : Cert.frame_KernelIdeal := fun m ρ _ => Cert.KernelIdeal.Gen.frame m ρ

/-- The reference runs: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- Over the extended reals, from memories agreeing on the arguments, the kernel's program and the reference both end
    with the layer's output of those arguments. -/
theorem algebraic : Cert.algebraic_KernelIdeal_ReferenceIdeal := by
  intro m ρ m' ρ' _ hagree
  refine ⟨fun c => Cert.KernelIdeal.Layer.expected m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Layer.reference_eq, lowRank_same, pickedB_same,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
